-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x512x1024, .f32⟩
  | .local _ .vmem, ⟨5, _⟩ => ⟨S1x512x1024, .f32⟩
  | .local _ .vmem, ⟨6, _⟩ => ⟨S2048x1024, .bf16⟩
  | .local _ .vmem, ⟨7, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x512x1024 : 0 < S1x512x1024.numel
  shapeCasts_S1x512x1024_S512x1024 : S1x512x1024.ShapeCasts S512x1024
  reduces_S512x2048_S512 : S512x2048.Reduces [1] S512
  shapeCasts_S512_S512x1 : S512.ShapeCasts S512x1
  broadcasts_S512x1_S512x2048 : S512x1.Broadcasts S512x2048
  inb_S1x512x1024_S1x512x1024_0_0_0 : ∀ a, (![0, 0, 0] : Fin 3 → Nat) a + S1x512x1024.size a ≤ S1x512x1024.size a
  shapeCasts_S512x1024_S1x512x1024 : S512x1024.ShapeCasts S1x512x1024
  dot_S2048x1024_S1024x1024_S2048x1024_1_1_0_0_n_n_wf : DotDims.WF S2048x1024 S1024x1024 S2048x1024 [1] [1] [0] [0] [] []
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .f32 = 32 ∨ (Rect.block (s := S4x2048x1024) S1x512x1024.size (cc0_transform_4 i) (hinb0_4 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Pieces.lean ====
/-
  What one grid point leaves behind, as values. At the first query tile of a batch the body stores the key and the
  value projections of the whole batch block into the two carried buffers and then computes its output tile from
  them; at every other tile it computes the output tile from what the buffers already hold. Each of these is one
  covering store, so what is left is that store's payload of the blocks the point read.
-/
import proofs.«176673_j57578331570614_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 query rows a point reads out of its batch block: rows `512 * qi` onward. -/
def tile (i : grid0.Coords) (x0 : Vec F S1x2048x1024 .f32) : Vec F S1x512x1024 .f32 :=
  View.ld x0 (Rect.unit (s := S1x2048x1024) (k0_off1 i) S1x512x1024.size (k0_off1_inb i))

/-- At a batch's first tile the key buffer is left holding the key projection of the batch block. -/
theorem keys_first (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i) (x0 : Vec F S1x2048x1024 .f32) (x1 : Vec F S1024x1024 .f32) (x2 : Vec F S1024x1024 .f32) (x3 : Vec F S1024x1024 .f32) :
    sout0_A_0 c i arg2 harg2 arg3 harg3 arg4 harg4 arg5 harg5 arg6 harg6 arg7 harg7 arg8 harg8 hc0 x0 x1 x2 x3 = k0_pay2 x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg4.read_unread, View.ld_unit_zero (S := S1x2048x1024) hz3,
    View.ld_unit_zero (S := S1024x1024) hz2]

/-- At a batch's first tile the value buffer is left holding the value projection of the batch block. -/
theorem values_first (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i) (x0 : Vec F S1x2048x1024 .f32) (x1 : Vec F S1024x1024 .f32) (x2 : Vec F S1024x1024 .f32) (x3 : Vec F S1024x1024 .f32) :
    sout0_A_1 c i arg2 harg2 arg3 harg3 arg4 harg4 arg5 harg5 arg6 harg6 arg7 harg7 arg8 harg8 hc0 x0 x1 x2 x3 = k0_pay3 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg5.read_unread, View.ld_unit_zero (S := S1x2048x1024) hz3,
    View.ld_unit_zero (S := S1024x1024) hz2]

/-- At a batch's first tile the output tile is computed from the projections just stored. -/
theorem out_first (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i) (x0 : Vec F S1x2048x1024 .f32) (x1 : Vec F S1024x1024 .f32) (x2 : Vec F S1024x1024 .f32) (x3 : Vec F S1024x1024 .f32) :
    out0_A_4 c i arg2 harg2 arg3 harg3 arg4 harg4 arg5 harg5 arg6 harg6 arg7 harg7 arg8 harg8 hc0 x0 x1 x2 x3 = k0_pay4 (tile i x0) x1 (k0_pay2 x0 x2) (k0_pay3 x0 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero (S := S1x512x1024) hz3]
  simp only [View.readAt_eq_ld, harg2.read_unread, harg3.read_unread, harg4.read_unread, harg5.read_unread,
    View.ld_unit_zero (S := S1x2048x1024) hz3, View.ld_unit_zero (S := S1024x1024) hz2,
    View.readCov_unit_zero (S := S2048x1024) _ hz2]
  rfl

/-- At any later tile the output tile is computed from what the two buffers hold. -/
theorem out_later (c : Dev nD) (i : grid0.Coords) (arg2 : Memref sig .tc .vmem S1x2048x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (hc0 : ¬cond0_0 i) (x0 : Vec F S1x2048x1024 .f32) (x1 : Vec F S1024x1024 .f32) (x2 : Vec F S1024x1024 .f32) (x3 : Vec F S1024x1024 .f32)
    (xs0 xs1 : Vec F S2048x1024 .bf16) :
    out0_B_4 c i arg2 harg2 arg3 harg3 arg4 harg4 arg5 harg5 arg6 harg6 arg7 harg7 arg8 harg8 hc0 x0 x1 x2 x3 xs0 xs1 = k0_pay4 (tile i x0) x1 xs0 xs1 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  rw [View.canon_unit_zero (S := S1x512x1024) hz3]
  simp only [View.readAt_eq_ld, harg2.read_unread, harg3.read_unread, harg7.read_unread, harg8.read_unread,
    View.ld_unit_zero (S := S1024x1024) hz2, View.ld_unit_zero (S := S2048x1024) hz2]
  rfl

end Cert.KernelIdeal.Pieces

end
-- ==== Proof.Spec.lean ====
/-
  The attention function both programs compute, on the extended reals, written over coordinates.

  For one batch block `xb` (2048 rows of 1024 reals) and weights `Wq Wk Wv` stored as [out, in]:
  a row's projection is `projRow xr W e = ∑ d, xr d * W e d`; a query row's score against key row `k` is the dot
  product of the two projected rows times `1/32`; the scores of a query row are normalised by the softmax taken with
  the row maximum subtracted; and the output entry is the softmax weights' combination of the value rows.

  The reference divides the scores by `√1024` where the kernel multiplies by `1/32`: on the extended reals the quotient
  by the real `32` is the product with `1/32` at every value, infinite ones included (`scale_eq`). The reference also
  takes the maximum of `-∞` and the row maximum, which is the row maximum (`max_init_fold`).
-/
import Idealize.ShloMosaic.PureOps.Ideal
import Idealize.ShloMosaic.PureOps.Ideal.Laws
import Idealize.ShloMosaic.Lib.ValueIdx

noncomputable section

namespace Cert.Attention

open Idealize.ShloMosaic

/-- One row times a weight matrix stored [out, in]. -/
def projRow (xr : Fin 1024 → EReal) (W : Fin 1024 → Fin 1024 → EReal) (e : Fin 1024) : EReal :=
  ∑ d : Fin 1024, xr d * W e d

/-- The scaled score of a projected query row against key row `k`. -/
def scoreRow (qr : Fin 1024 → EReal) (K : Fin 2048 → Fin 1024 → EReal) (k : Fin 2048) : EReal :=
  (∑ e : Fin 1024, qr e * K k e) * Ideal.ofBits .f32 0x3D000000#32

/-- The maximum of a row of scores, folded from `-∞`. -/
def rowMax (sc : Fin 2048 → EReal) : EReal :=
  (Finset.univ : Finset (Fin 2048)).fold max (Ideal.ofBits .f32 0xFF800000#32) sc

/-- The exponentials of a row of scores, the row maximum subtracted. -/
def expRow (sc : Fin 2048 → EReal) (k : Fin 2048) : EReal := Ideal.exp (sc k - rowMax sc)

/-- The softmax weights' combination of the value rows, at column `e`. -/
def attend (sc : Fin 2048 → EReal) (V : Fin 2048 → Fin 1024 → EReal) (e : Fin 1024) : EReal :=
  ∑ k : Fin 2048, Ideal.div (expRow sc k) (∑ k' : Fin 2048, expRow sc k') * V k e

/-- The attention output of query row `xr` of a batch block `xb`, at column `e`. -/
def outRow (xr : Fin 1024 → EReal) (xb : Fin 2048 → Fin 1024 → EReal) (Wq Wk Wv : Fin 1024 → Fin 1024 → EReal)
    (e : Fin 1024) : EReal :=
  attend (scoreRow (projRow xr Wq) fun s => projRow (xb s) Wk) (fun s => projRow (xb s) Wv) e

/-- The whole result array as one function of the argument arrays. -/
def result (x : (⟨3, ![4, 2048, 1024]⟩ : Shape).Idx → EReal) (Wq Wk Wv : (⟨2, ![1024, 1024]⟩ : Shape).Idx → EReal) :
    (⟨3, ![4, 2048, 1024]⟩ : Shape).Idx → EReal :=
  fun i => outRow (fun d => x (ValueIdx.ix3 (i 0) (i 1) d)) (fun s d => x (ValueIdx.ix3 (i 0) s d))
    (fun e d => Wq (ValueIdx.ix2 e d)) (fun e d => Wk (ValueIdx.ix2 e d)) (fun e d => Wv (ValueIdx.ix2 e d)) (i 2)

/-! ## The two places the programs are spelt differently -/

/-- A fold of `max` is at least its starting value, so taking the maximum with that value again changes nothing. -/
theorem max_init_fold (b : EReal) (f : Fin 2048 → EReal) :
    max b ((Finset.univ : Finset (Fin 2048)).fold max b f) = (Finset.univ : Finset (Fin 2048)).fold max b f :=
  by
  apply max_eq_right
  rw [Finset.le_fold_max]
  exact Or.inl le_rfl

/-- The f32 word of 1024 is the real 1024. -/
theorem ofBits_1024 : Ideal.ofBits .f32 0x44800000#32 = ((1024 : ℝ) : EReal) := by
  simp [Ideal.ofBits, Ideal.ieee, -EReal.coe_mul]; norm_num

/-- The f32 word of 1/32 is the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt (Ideal.ofBits .f32 0x44800000#32) = ((32 : ℝ) : EReal) := by
  rw [ofBits_1024, Ideal.sqrt_coe, if_neg (by norm_num)]
  congr 1
  rw [show (1024 : ℝ) = 32 ^ 2 by norm_num, Real.sqrt_sq (by norm_num)]

/-- Dividing by `√1024` is multiplying by `1/32`, at every extended real. -/
theorem scale_eq (s : EReal) :
    Ideal.div s (Ideal.sqrt (Ideal.ofBits .f32 0x44800000#32)) = s * Ideal.ofBits .f32 0x3D000000#32 := by
  rw [sqrt_1024, Ideal.div_coe (by norm_num : (32 : ℝ) ≠ 0), ofBits_inv32]

end Cert.Attention

end
-- ==== Proof.LibRowMatmul.lean ====
/-
  General facts at the ideal values, for any sizes.

  A matrix product into the zero accumulator read at an entry, for the two ways a rank-2 pair is contracted here:
  rows against rows (the last axis of both operands: `A · Bᵀ`) and rows against columns (`A · B`). Each is the plain
  finite sum over the contracted coordinate. The dimension numbers are any record with one contracted axis whose
  kept coordinates are the output's; a caller supplies those coordinate facts for its own record.

  And the maximum along the rows of an `a × b` array, and the host's maximum along the last axis of an
  `n0 × n1 × n2` array, each as the fold of `max` from the starting value over the coordinates of that axis.
-/
import Idealize.ShloMosaic.PureOps.Ideal.Laws
import Idealize.ShloMosaic.PureOps.Reduce
import Idealize.ShloMosaic.Lib.ValueIdx

namespace Cert.Lib.RowMatmul

open Idealize.ShloMosaic Idealize.ShloMosaic.ValueIdx

/-- Rows against rows: `(A · Bᵀ)(a, b) = ∑ c, A(a, c) · B(b, c)`. -/
theorem matmul_rows_apply {m k n : ℕ} {φ₁ φ₂ : FTy} (D : DotDims ⟨2, ![m, k]⟩ ⟨2, ![n, k]⟩ ⟨2, ![m, n]⟩)
    (hl : D.lhsContracting = [1]) (hr : D.rhsContracting = [1])
    (hrank : D.contr.rank = 1) (hsize : D.contr.size ⟨0, by omega⟩ = k)
    (h0 : ∀ j q, (D.lhsIdx j q 0).val = (j 0).val) (h1 : ∀ j q, (D.rhsIdx j q 0).val = (j 1).val)
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 b c := funext fun ax => Fin.ext (by
    match ax with
    | ⟨0, _⟩ => exact h1 _ _
    | ⟨1, _⟩ => exact (D.rhsIdx_val_of_single hr _ _).trans hk)
  rw [el, er]

/-- Rows against columns: `(A · B)(a, b) = ∑ c, A(a, c) · B(c, b)`. -/
theorem matmul_cols_apply {m k n : ℕ} {φ₁ φ₂ : FTy} (D : DotDims ⟨2, ![m, k]⟩ ⟨2, ![k, n]⟩ ⟨2, ![m, n]⟩)
    (hl : D.lhsContracting = [1]) (hr : D.rhsContracting = [0])
    (hrank : D.contr.rank = 1) (hsize : D.contr.size ⟨0, by omega⟩ = k)
    (h0 : ∀ j q, (D.lhsIdx j q 0).val = (j 0).val) (h1 : ∀ j q, (D.rhsIdx j q 1).val = (j 1).val)
    (prec : Option ContractPrecision) (A : FVec Ideal ⟨2, ![m, k]⟩ φ₁) (B : FVec Ideal ⟨2, ![k, n]⟩ φ₂)
    (a : Fin m) (b : Fin n) :
    matmul D prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 c b := funext fun ax => Fin.ext (by
    match ax with
    | ⟨0, _⟩ => exact (D.rhsIdx_val_of_single hr _ _).trans hk
    | ⟨1, _⟩ => exact h1 _ _)
  rw [el, er]

/-- The maximum along each row of an `a × b` array: at row `r`, the fold of `max` from the accumulator's value
    over the `b` columns. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => Finset.fold max (Ideal.ofBits φ acc) f (Finset.univ : Finset (Fin b))) ?_
  funext k
  refine congrArg src ?_
  funext ax; apply Fin.ext
  match ax with
  | ⟨0, _⟩ => rfl
  | ⟨1, _⟩ => rfl

/-- The host's maximum along the last axis of an `n0 × n1 × n2` array: at `(p, q)`, the fold of `max` from the
    starting value over the `n2` coordinates. -/
theorem hostLastMax_apply {n0 n1 n2 : ℕ} {φ : FTy} {u : Shape} (x : FVec Ideal ⟨3, ![n0, n1, n2]⟩ φ) (init : u.Idx → Ideal φ)
    (h' : Shape.ReducesTo ⟨3, ![n0, n1, n2]⟩ [2] ⟨2, ![n0, n1]⟩) (h : Shape.Reduces ⟨3, ![n0, n1, n2]⟩ [2] ⟨2, ![n0, n1]⟩)
    (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  funext k
  refine congrArg x ?_
  funext ax; apply Fin.ext
  match ax with
  | ⟨0, _⟩ => rfl
  | ⟨1, _⟩ => rfl
  | ⟨2, _⟩ => rfl

end Cert.Lib.RowMatmul
-- ==== Proof.LibColumnForms.lean ====
/-
  General facts about rank-2 arrays, for any sizes.

  The column forms a row-wise reduction with kept dimensions needs: a vector of `a` row values viewed as an `a × 1`
  column, and such a column spread over `b` columns.  And the two one-axis sums of an `a × b` array of extended reals:
  along the rows' entries (one value per row) and down the columns (one value per column), each as a plain finite sum.
-/
import Idealize.ShloMosaic.PureOps.Ideal.Laws
import Idealize.ShloMosaic.Lib.ValueIdx
import Idealize.ShloMosaic.Lib.ValueLayout
import Idealize.ShloMosaic.Lib.Pipeline.Value

namespace Cert.Lib.ColumnForms

open Idealize.ShloMosaic Idealize.ShloMosaic.ValueIdx

variable {α : Type}

/-- An `[a]` array cast to an `[a, 1]` column reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The sum along each row of an `a × b` array of extended reals: at row `r`, the sum over the `b` columns. -/
theorem rowSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-- The sum down each column of an `a × b` array of extended reals: at column `c`, the sum over the `a` rows. -/
theorem colSum_apply {a b : ℕ} {φ : FTy} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

end Cert.Lib.ColumnForms
-- ==== Proof.Payload.lean ====
/-
  The body's three stores read entry by entry on the extended reals.

  The key and the value buffers receive the batch block times the key and the value weights, rows against rows. The
  output tile is built from a query tile (512 rows of the block times the query weights), its scores against all
  2048 key rows scaled by 1/32, the exponentials of the scores less their row maximum, those divided by their row
  sum, and finally that weight matrix times the value rows. Every change of float format in between is the identity
  on extended reals, and every matrix product starts from the zero accumulator, so each entry is a plain finite sum.
-/
import proofs.«176673_j57578331570614_2_alg».proof.Proof.Gen.KernelIdeal.Skeleton
import proofs.«176673_j57578331570614_2_alg».proof.Proof.Spec
import proofs.«176673_j57578331570614_2_alg».proof.Proof.LibRowMatmul
import proofs.«176673_j57578331570614_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.Attention Cert.Lib.RowMatmul Cert.Lib.ColumnForms

/-! ## The projections stored into the two carried buffers -/

/-- One entry of the batch block times a weight matrix: row `s`, column `e`. -/
theorem proj_entry (x0 : Vec Ideal S1x2048x1024 .f32) (w : Vec Ideal S1024x1024 .f32) (s : Fin 2048) (e : Fin 1024) :
    matmul dot_S2048x1024_S1024x1024_S2048x1024_1_1_0_0_n_n none (k0_pay1 (F := Ideal) x0) (truncf .bf16 w bitsLt_bf16_f32) (constant S2048x1024 .f32 0x00000000#32) (ix2 s e)
      = projRow (fun d => x0 (ix3 0 s d)) (fun e d => w (ix2 e d)) e := by
  refine (matmul_rows_apply dot_S2048x1024_S1024x1024_S2048x1024_1_1_0_0_n_n rfl rfl rfl rfl
    (fun j q => by
      unfold DotDims.lhsIdx
      rw [dif_neg (show ¬(0 : Fin 2) ∈ dot_S2048x1024_S1024x1024_S2048x1024_1_1_0_0_n_n.lhsBatch by decide), dif_pos (show (0 : Fin 2) ∈ dot_S2048x1024_S1024x1024_S2048x1024_1_1_0_0_n_n.lhsNonContracting by decide)]
      rfl)
    (fun j q => by
      unfold DotDims.rhsIdx
      rw [dif_neg (show ¬(0 : Fin 2) ∈ dot_S2048x1024_S1024x1024_S2048x1024_1_1_0_0_n_n.rhsBatch by decide), dif_pos (show (0 : Fin 2) ∈ dot_S2048x1024_S1024x1024_S2048x1024_1_1_0_0_n_n.rhsNonContracting by decide)]
      rfl) none _ _ s e).trans ?_
  unfold projRow
  refine Finset.sum_congr rfl fun d _ => ?_
  unfold k0_pay1
  exact congrArg (· * w (ix2 e d)) (shapeCast_1ab_ab_apply x0 _ s d)

/-- What is stored into the key buffer: the key projection of the batch block. -/
theorem keys_entry (x0 : Vec Ideal S1x2048x1024 .f32) (w : Vec Ideal S1024x1024 .f32) (s : Fin 2048) (e : Fin 1024) :
    k0_pay2 (F := Ideal) x0 w (ix2 s e) = projRow (fun d => x0 (ix3 0 s d)) (fun e d => w (ix2 e d)) e := by
  unfold k0_pay2
  refine (congrFun (shapeCast_self _ _) _).trans ?_
  exact proj_entry x0 w s e

/-- What is stored into the value buffer: the value projection of the batch block. -/
theorem values_entry (x0 : Vec Ideal S1x2048x1024 .f32) (w : Vec Ideal S1024x1024 .f32) (s : Fin 2048) (e : Fin 1024) :
    k0_pay3 (F := Ideal) x0 w (ix2 s e) = projRow (fun d => x0 (ix3 0 s d)) (fun e d => w (ix2 e d)) e := by
  unfold k0_pay3
  refine (congrFun (shapeCast_self _ _) _).trans ?_
  exact proj_entry x0 w s e

/-! ## The output tile, one intermediate value at a time -/

/-- The query tile: the 512 rows read, times the query weights. -/
def qTile (v6 : Vec Ideal S1x512x1024 .f32) (v9 : Vec Ideal S1024x1024 .f32) : FVec Ideal S512x1024 .f32 :=
  matmul dot_S512x1024_S1024x1024_S512x1024_1_1_0_0_n_n none (truncf .bf16 (shapeCast S512x1024 v6 shapeCasts_S1x512x1024_S512x1024) bitsLt_bf16_f32)
    (truncf .bf16 v9 bitsLt_bf16_f32) (constant S512x1024 .f32 0x00000000#32)

/-- The scaled scores of the query tile against the rows of the key buffer. -/
def scoresT (v6 : Vec Ideal S1x512x1024 .f32) (v9 : Vec Ideal S1024x1024 .f32) (Ks : FVec Ideal S2048x1024 .bf16) :
    FVec Ideal S512x2048 .f32 :=
  mulf (matmul dot_S512x1024_S2048x1024_S512x2048_1_1_0_0_n_n none (truncf .bf16 (qTile v6 v9) bitsLt_bf16_f32) Ks (constant S512x2048 .f32 0x00000000#32))
    (broadcast S512x2048 (Scalar.ofBits .f32 0x3D000000#32))

/-- The exponentials of the scores, each row's maximum subtracted. -/
def expT (sc : FVec Ideal S512x2048 .f32) : FVec Ideal S512x2048 .f32 :=
  exp (subf sc (broadcastTo S512x2048 (shapeCast S512x1
    (multiReduction .maximumf [1] S512 sc 0xFF800000#32 reduces_S512x2048_S512 (.inl rfl) rfl) shapeCasts_S512_S512x1)
    broadcasts_S512x1_S512x2048))

/-- The exponentials divided by their row sums. -/
def weightsT (p : FVec Ideal S512x2048 .f32) : FVec Ideal S512x2048 .f32 :=
  divf p (broadcastTo S512x2048 (shapeCast S512x1
    (multiReduction .add [1] S512 p 0x00000000#32 reduces_S512x2048_S512 (.inl rfl) rfl) shapeCasts_S512_S512x1)
    broadcasts_S512x1_S512x2048)

/-- The output store's payload is the weights times the value buffer, with a unit axis put in front. -/
theorem out_eq (v6 : Vec Ideal S1x512x1024 .f32) (v9 : Vec Ideal S1024x1024 .f32) (Ks Vs : FVec Ideal S2048x1024 .bf16) :
    k0_pay4 (F := Ideal) v6 v9 Ks Vs
      = shapeCast S1x512x1024 (matmul dot_S512x2048_S2048x1024_S512x1024_1_0_0_1_n_n none (truncf .bf16 (weightsT (expT (scoresT v6 v9 Ks))) bitsLt_bf16_f32) Vs
          (constant S512x1024 .f32 0x00000000#32)) shapeCasts_S512x1024_S1x512x1024 := rfl

theorem qTile_apply (v6 : Vec Ideal S1x512x1024 .f32) (v9 : Vec Ideal S1024x1024 .f32) (r : Fin 512) (e : Fin 1024) :
    qTile v6 v9 (ix2 r e) = projRow (fun d => v6 (ix3 0 r d)) (fun e d => v9 (ix2 e d)) e := by
  unfold qTile
  refine (matmul_rows_apply dot_S512x1024_S1024x1024_S512x1024_1_1_0_0_n_n rfl rfl rfl rfl
    (fun j q => by
      unfold DotDims.lhsIdx
      rw [dif_neg (show ¬(0 : Fin 2) ∈ dot_S512x1024_S1024x1024_S512x1024_1_1_0_0_n_n.lhsBatch by decide), dif_pos (show (0 : Fin 2) ∈ dot_S512x1024_S1024x1024_S512x1024_1_1_0_0_n_n.lhsNonContracting by decide)]
      rfl)
    (fun j q => by
      unfold DotDims.rhsIdx
      rw [dif_neg (show ¬(0 : Fin 2) ∈ dot_S512x1024_S1024x1024_S512x1024_1_1_0_0_n_n.rhsBatch by decide), dif_pos (show (0 : Fin 2) ∈ dot_S512x1024_S1024x1024_S512x1024_1_1_0_0_n_n.rhsNonContracting by decide)]
      rfl) none _ _ r e).trans ?_
  unfold projRow
  refine Finset.sum_congr rfl fun d _ => ?_
  exact congrArg (· * v9 (ix2 e d)) (shapeCast_1ab_ab_apply v6 _ r d)

theorem scoresT_apply (v6 : Vec Ideal S1x512x1024 .f32) (v9 : Vec Ideal S1024x1024 .f32) (Ks : FVec Ideal S2048x1024 .bf16)
    (r : Fin 512) (k : Fin 2048) :
    scoresT v6 v9 Ks (ix2 r k)
      = scoreRow (projRow (fun d => v6 (ix3 0 r d)) fun e d => v9 (ix2 e d)) (fun s e => Ks (ix2 s e)) k := by
  unfold scoresT scoreRow
  refine congrArg (· * Ideal.ofBits .f32 0x3D000000#32) ?_
  refine (matmul_rows_apply dot_S512x1024_S2048x1024_S512x2048_1_1_0_0_n_n rfl rfl rfl rfl
    (fun j q => by
      unfold DotDims.lhsIdx
      rw [dif_neg (show ¬(0 : Fin 2) ∈ dot_S512x1024_S2048x1024_S512x2048_1_1_0_0_n_n.lhsBatch by decide), dif_pos (show (0 : Fin 2) ∈ dot_S512x1024_S2048x1024_S512x2048_1_1_0_0_n_n.lhsNonContracting by decide)]
      rfl)
    (fun j q => by
      unfold DotDims.rhsIdx
      rw [dif_neg (show ¬(0 : Fin 2) ∈ dot_S512x1024_S2048x1024_S512x2048_1_1_0_0_n_n.rhsBatch by decide), dif_pos (show (0 : Fin 2) ∈ dot_S512x1024_S2048x1024_S512x2048_1_1_0_0_n_n.rhsNonContracting by decide)]
      rfl) none _ _ r k).trans ?_
  refine Finset.sum_congr rfl fun e _ => ?_
  exact congrArg (· * Ks (ix2 k e)) (qTile_apply v6 v9 r e)

theorem expT_apply (sc : FVec Ideal S512x2048 .f32) (r : Fin 512) (k : Fin 2048) :
    expT sc (ix2 r k) = expRow (fun k => sc (ix2 r k)) k := by
  unfold expT expRow rowMax
  have hm : broadcastTo S512x2048 (shapeCast S512x1
      (multiReduction .maximumf [1] S512 sc 0xFF800000#32 reduces_S512x2048_S512 (.inl rfl) rfl) shapeCasts_S512_S512x1)
      broadcasts_S512x1_S512x2048 (ix2 r k)
      = (Finset.univ : Finset (Fin 2048)).fold max (Ideal.ofBits .f32 0xFF800000#32) (fun k => sc (ix2 r k)) :=
    (broadcastTo_a1_ab_apply _ _ r k).trans ((shapeCast_a_a1_apply _ _ r 0).trans (rowMax_apply sc _ _ _ _ r))
  exact congrArg (fun z => Ideal.exp (sc (ix2 r k) - z)) hm

theorem weightsT_apply (p : FVec Ideal S512x2048 .f32) (r : Fin 512) (k : Fin 2048) :
    weightsT p (ix2 r k) = Ideal.div (p (ix2 r k)) (∑ k' : Fin 2048, p (ix2 r k')) := by
  unfold weightsT
  have hs : broadcastTo S512x2048 (shapeCast S512x1
      (multiReduction .add [1] S512 p 0x00000000#32 reduces_S512x2048_S512 (.inl rfl) rfl) shapeCasts_S512_S512x1)
      broadcasts_S512x1_S512x2048 (ix2 r k) = ∑ k' : Fin 2048, p (ix2 r k') :=
    (broadcastTo_a1_ab_apply _ _ r k).trans ((shapeCast_a_a1_apply _ _ r 0).trans (rowSum_apply p _ _ _ _ r))
  exact congrArg (Ideal.div (p (ix2 r k))) hs

/-- The output tile's entry `(r, e)`: the attention of query row `r` over the rows the two buffers hold. -/
theorem out_entry (v6 : Vec Ideal S1x512x1024 .f32) (v9 : Vec Ideal S1024x1024 .f32) (Ks Vs : FVec Ideal S2048x1024 .bf16)
    (r : Fin 512) (e : Fin 1024) :
    k0_pay4 (F := Ideal) v6 v9 Ks Vs (ix3 0 r e)
      = attend (scoreRow (projRow (fun d => v6 (ix3 0 r d)) fun e d => v9 (ix2 e d)) fun s e => Ks (ix2 s e))
          (fun s e => Vs (ix2 s e)) e := by
  refine (congrFun (out_eq v6 v9 Ks Vs) _).trans ?_
  refine (shapeCast_ab_1ab_apply _ _ 0 r e).trans ?_
  refine (matmul_cols_apply dot_S512x2048_S2048x1024_S512x1024_1_0_0_1_n_n rfl rfl rfl rfl
    (fun j q => by
      unfold DotDims.lhsIdx
      rw [dif_neg (show ¬(0 : Fin 2) ∈ dot_S512x2048_S2048x1024_S512x1024_1_0_0_1_n_n.lhsBatch by decide), dif_pos (show (0 : Fin 2) ∈ dot_S512x2048_S2048x1024_S512x1024_1_0_0_1_n_n.lhsNonContracting by decide)]
      rfl)
    (fun j q => by
      unfold DotDims.rhsIdx
      rw [dif_neg (show ¬(1 : Fin 2) ∈ dot_S512x2048_S2048x1024_S512x1024_1_0_0_1_n_n.rhsBatch by decide), dif_pos (show (1 : Fin 2) ∈ dot_S512x2048_S2048x1024_S512x1024_1_0_0_1_n_n.rhsNonContracting by decide)]
      rfl) none _ _ r e).trans ?_
  unfold attend
  have he : ∀ k' : Fin 2048, expT (scoresT v6 v9 Ks) (ix2 r k')
      = expRow (scoreRow (projRow (fun d => v6 (ix3 0 r d)) fun e d => v9 (ix2 e d)) fun s e => Ks (ix2 s e)) k' :=
    fun k' => (expT_apply _ r k').trans (congrArg (fun f => expRow f k') (funext fun k'' => scoresT_apply v6 v9 Ks r k''))
  refine Finset.sum_congr rfl fun k _ => ?_
  refine congrArg (· * Vs (ix2 k e)) ?_
  refine (weightsT_apply _ r k).trans ?_
  rw [he k, Finset.sum_congr rfl fun k' _ => he k']

end Cert.KernelIdeal.Payload

end
-- ==== Proof.KernelValue.lean ====
/-
  The kernel's result array, as one function of the argument arrays.

  The grid runs over (batch, query tile), the tile index fastest, so point `t` works on batch `t / 4` and query rows
  `512 * (t % 4)` onward. Two buffers are carried from point to point: after every point of batch `b` they hold the key
  and the value projections of batch `b`'s block, because the first tile of the batch stores them and the three later
  tiles leave them alone (induction over the points). So every point writes back the attention of its 512 query rows
  over its whole batch, which is the corresponding block of the result function, and the sixteen blocks fill the array.
-/
import proofs.«176673_j57578331570614_2_alg».proof.Proof.Gen.KernelIdeal.Value
import proofs.«176673_j57578331570614_2_alg».proof.Proof.Pieces
import proofs.«176673_j57578331570614_2_alg».proof.Proof.Payload
import proofs.«176673_j57578331570614_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces Cert.KernelIdeal.Payload Cert.Attention

variable (m : (ℓ : Loc nD τ sig) → Buf (Elt Ideal) ℓ) (ρ : Dev nD → PrngReg)

/-! ## Where each point's blocks sit -/

/-- The printed index maps, decided over the sixteen points: the batch block of `x` is block `t / 4`, the weights
    are whole, the output block is (`t / 4`, `t % 4`); and the query tile starts at row `512 * (t % 4)`. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ k0_off1 (grid0.coords t) (0 : Fin 3) = 0 ∧ k0_off1 (grid0.coords t) (1 : Fin 3) = 512 * (t.val % 4)
    ∧ k0_off1 (grid0.coords t) (2 : Fin 3) = 0 :=
  (by decide +kernel : ∀ t : Fin grid0.N, _)

/-- Every (batch, tile) pair is some point's output block. -/
theorem idx_onto : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

theorem N16 : cfg0.N = 16 := N_0

/-- The batch a point works on. -/
def batch (n : ℕ) (h : n < cfg0.N) : Fin 4 := ⟨n / 4, by have := N16; omega⟩

/-- The first query row of a point's tile, plus `r`. -/
def qrow (n : ℕ) (h : n < cfg0.N) (r : Fin 512) : Fin 2048 := ⟨512 * (n % 4) + r.val, by have := r.isLt; omega⟩

/-- The batch block read at `(s, d)` is `x` at `(t / 4, s, d)`. -/
theorem xblock_entry (c : Dev nD) (t : Fin cfg0.N) (s : Fin 2048) (d : Fin 1024) :
    iblk m c 0 t (ix3 0 s d) = V m c main_arg0 (ix3 (batch t.val t.isLt) s d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val / 4; omega
  | ⟨1, _⟩ => show win0_0.index t (1 : Fin 3) * 2048 + 1 * s.val = s.val; omega
  | ⟨2, _⟩ => show win0_0.index t (2 : Fin 3) * 1024 + 1 * d.val = d.val; omega

/-- The query weights' block is the whole matrix. -/
theorem wq_entry (c : Dev nD) (t : Fin cfg0.N) (e d : Fin 1024) :
    iblk m c 1 t (ix2 e d) = V m c main_arg1 (ix2 e d) := by
  obtain ⟨-, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * e.val = e.val; omega
  | ⟨1, _⟩ => show win0_1.index t (1 : Fin 2) * 1024 + 1 * d.val = d.val; omega

/-- The key weights' block is the whole matrix. -/
theorem wk_entry (c : Dev nD) (t : Fin cfg0.N) (e d : Fin 1024) :
    iblk m c 2 t (ix2 e d) = V m c main_arg2 (ix2 e d) := by
  obtain ⟨-, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 1024 + 1 * e.val = e.val; omega
  | ⟨1, _⟩ => show win0_2.index t (1 : Fin 2) * 1024 + 1 * d.val = d.val; omega

/-- The value weights' block is the whole matrix. -/
theorem wv_entry (c : Dev nD) (t : Fin cfg0.N) (e d : Fin 1024) :
    iblk m c 3 t (ix2 e d) = V m c main_arg3 (ix2 e d) := by
  obtain ⟨-, -, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 1024 + 1 * e.val = e.val; omega
  | ⟨1, _⟩ => show win0_3.index t (1 : Fin 2) * 1024 + 1 * d.val = d.val; omega

/-- The query tile read at `(r, d)` is the batch block at row `512 * (t % 4) + r`. -/
theorem tile_entry (t : Fin cfg0.N) (x0 : Vec Ideal S1x2048x1024 .f32) (r : Fin 512) (d : Fin 1024) :
    tile (grid0.coords t) x0 (ix3 0 r d) = x0 (ix3 0 (qrow t.val t.isLt r) d) := by
  obtain ⟨-, -, -, -, -, -, -, -, -, -, -, -, o0, o1, o2⟩ := idx_facts t
  unfold tile
  show x0 _ = x0 _
  congr 1
  funext a
  apply Fin.ext
  match a with
  | ⟨0, _⟩ => show k0_off1 (grid0.coords t) (0 : Fin 3) + 1 * 0 = 0; omega
  | ⟨1, _⟩ => show k0_off1 (grid0.coords t) (1 : Fin 3) + 1 * r.val = 512 * (t.val % 4) + r.val; omega
  | ⟨2, _⟩ => show k0_off1 (grid0.coords t) (2 : Fin 3) + 1 * d.val = d.val; omega

/-! ## One point's output from its blocks and the two buffers -/

/-- If the buffers hold the key and the value projections of a block `xb`, and the tile's row `r` is `xr`, the
    output store's entry `(r, e)` is the attention of `xr` over `xb`. Stated over variables; a point's blocks are put
    in afterwards. -/
theorem out_of (i : grid0.Coords) (x0 : Vec Ideal S1x2048x1024 .f32) (x1 : Vec Ideal S1024x1024 .f32)
    (Ks Vs : FVec Ideal S2048x1024 .bf16) (r : Fin 512) (e : Fin 1024)
    (xr : Fin 1024 → EReal) (xb : Fin 2048 → Fin 1024 → EReal) (Wq Wk Wv : Fin 1024 → Fin 1024 → EReal)
    (h0 : ∀ d, tile i x0 (ix3 0 r d) = xr d) (h1 : ∀ e d, x1 (ix2 e d) = Wq e d)
    (hK : ∀ s e, Ks (ix2 s e) = projRow (xb s) Wk e) (hV : ∀ s e, Vs (ix2 s e) = projRow (xb s) Wv e) :
    k0_pay4 (F := Ideal) (tile i x0) x1 Ks Vs (ix3 0 r e) = outRow xr xb Wq Wk Wv e := by
  refine (out_entry (tile i x0) x1 Ks Vs r e).trans ?_
  unfold outRow
  have e0 : (fun d => tile i x0 (ix3 0 r d)) = xr := funext h0
  have e1 : (fun e d => x1 (ix2 e d)) = Wq := funext fun e => funext fun d => h1 e d
  have eK : (fun s e => Ks (ix2 s e)) = fun s => projRow (xb s) Wk := funext fun s => funext fun e => hK s e
  have eV : (fun s e => Vs (ix2 s e)) = fun s => projRow (xb s) Wv := funext fun s => funext fun e => hV s e
  rw [e0, e1, eK, eV]

/-- Row `s` of batch `b` of `x`. -/
abbrev xrow (c : Dev nD) (b : Fin 4) (s : Fin 2048) : Fin 1024 → EReal := fun d => V m c main_arg0 (ix3 b s d)
/-- The three weight matrices over coordinates. -/
abbrev wq (c : Dev nD) : Fin 1024 → Fin 1024 → EReal := fun e d => V m c main_arg1 (ix2 e d)
abbrev wk (c : Dev nD) : Fin 1024 → Fin 1024 → EReal := fun e d => V m c main_arg2 (ix2 e d)
abbrev wv (c : Dev nD) : Fin 1024 → Fin 1024 → EReal := fun e d => V m c main_arg3 (ix2 e d)

/-- What a batch's first tile stores into the key buffer, in terms of `x` and the key weights. -/
theorem keys_stored (c : Dev nD) (t : Fin cfg0.N) (s : Fin 2048) (e : Fin 1024) :
    k0_pay2 (F := Ideal) (iblk m c 0 t) (iblk m c 2 t) (ix2 s e)
      = projRow (xrow m c (batch t.val t.isLt) s) (wk m c) e := by
  refine (keys_entry _ _ s e).trans ?_
  have e0 : (fun d => iblk m c 0 t (ix3 0 s d)) = xrow m c (batch t.val t.isLt) s := funext fun d => xblock_entry m c t s d
  have e1 : (fun e d => iblk m c 2 t (ix2 e d)) = wk m c := funext fun e => funext fun d => wk_entry m c t e d
  rw [e0, e1]

/-- The same for the value buffer. -/
theorem values_stored (c : Dev nD) (t : Fin cfg0.N) (s : Fin 2048) (e : Fin 1024) :
    k0_pay3 (F := Ideal) (iblk m c 0 t) (iblk m c 3 t) (ix2 s e)
      = projRow (xrow m c (batch t.val t.isLt) s) (wv m c) e := by
  refine (values_entry _ _ s e).trans ?_
  have e0 : (fun d => iblk m c 0 t (ix3 0 s d)) = xrow m c (batch t.val t.isLt) s := funext fun d => xblock_entry m c t s d
  have e1 : (fun e d => iblk m c 3 t (ix2 e d)) = wv m c := funext fun e => funext fun d => wv_entry m c t e d
  rw [e0, e1]

/-! ## The carried buffers after every point -/

/-- After point `n` the two buffers hold the key and the value projections of batch `n / 4`: the batch's first tile
    stores them, a later tile keeps what the point before left, and that point is in the same batch. -/
theorem carried (c : Dev nD) : ∀ (n : ℕ) (h : n < cfg0.N),
    (∀ s e, (outsAt0 m c n h).2.1 (ix2 s e) = projRow (xrow m c (batch n h) s) (wk m c) e)
    ∧ (∀ s e, (outsAt0 m c n h).2.2 (ix2 s e) = projRow (xrow m c (batch n h) s) (wv m c) e)
  | 0, h => by
    rw [outsAt0_A m c ⟨0, h⟩ rfl]
    dsimp only
    rw [keys_first, values_first]
    exact ⟨fun s e => keys_stored m c ⟨0, h⟩ s e, fun s e => values_stored m c ⟨0, h⟩ s e⟩
  | n + 1, h => by
    by_cases h0 : (n + 1) % 4 = 0
    · rw [outsAt0_A m c ⟨n + 1, h⟩ h0]
      dsimp only
      rw [keys_first, values_first]
      exact ⟨fun s e => keys_stored m c ⟨n + 1, h⟩ s e, fun s e => values_stored m c ⟨n + 1, h⟩ s e⟩
    · rw [outsAt0_B m c ⟨n + 1, h⟩ h0]
      dsimp only
      unfold sout0_B_0 sout0_B_1
      have ih := carried c n (Nat.lt_of_succ_lt h)
      have hb : batch (n + 1) h = batch n (Nat.lt_of_succ_lt h) := Fin.ext (by show (n + 1) / 4 = n / 4; omega)
      rw [hb]
      exact ih

/-! ## What each point writes back -/

/-- The output staging buffer after point `t`, entry `(r, e)`: the attention of query row `512 * (t % 4) + r` of
    batch `t / 4` over that batch. -/
theorem out_point (c : Dev nD) (t : Fin cfg0.N) (r : Fin 512) (e : Fin 1024) :
    (outsAt0 m c t.val t.isLt).1 (ix3 0 r e)
      = outRow (xrow m c (batch t.val t.isLt) (qrow t.val t.isLt r)) (fun s => xrow m c (batch t.val t.isLt) s)
          (wq m c) (wk m c) (wv m c) e := by
  have hq : ∀ d, tile (grid0.coords t) (iblk m c 0 t) (ix3 0 r d) = xrow m c (batch t.val t.isLt) (qrow t.val t.isLt r) d :=
    fun d => (tile_entry t (iblk m c 0 t) r d).trans (xblock_entry m c t _ d)
  by_cases h0 : t.val % 4 = 0
  · rw [outsAt0_A m c t h0]
    dsimp only
    rw [out_first]
    exact out_of (grid0.coords t) (iblk m c 0 t) (iblk m c 1 t) _ _ r e _ _ _ _ _ hq (fun e d => wq_entry m c t e d)
      (fun s e => keys_stored m c t s e) (fun s e => values_stored m c t s e)
  · rw [outsAt0_B m c t h0]
    dsimp only
    rw [out_later]
    have hN := N16
    have hpos : 0 < t.val := by omega
    have ih := carried m c (t.val - 1) (Nat.lt_of_le_of_lt (Nat.sub_le _ _) t.isLt)
    have hb : batch (t.val - 1) (Nat.lt_of_le_of_lt (Nat.sub_le _ _) t.isLt) = batch t.val t.isLt :=
      Fin.ext (by show (t.val - 1) / 4 = t.val / 4; omega)
    rw [hb] at ih
    exact out_of (grid0.coords t) (iblk m c 0 t) (iblk m c 1 t) _ _ r e _ _ _ _ _ hq (fun e d => wq_entry m c t e d)
      ih.1 ih.2

/-! ## The result array -/

/-- The result function of the argument arrays as the region finds them. -/
abbrev G (c : Dev nD) : S4x2048x1024.Idx → EReal :=
  result (V m c main_arg0) (V m c main_arg1) (V m c main_arg2) (V m c main_arg3)

/-- What point `t` writes back is block `t` of the result function. -/
theorem flushed_eq (c : Dev nD) (t : Fin cfg0.N) :
    (dats m 0 c).flushed 4 t = ((cfg0.win 4).blk t).view.read (Elt Ideal) (G m c) := by
  rw [Value.flushed4]
  obtain ⟨-, -, -, -, -, -, -, -, -, e0, e1, e2, -⟩ := idx_facts t
  funext j
  show (outsAt0 m c t.val t.isLt).1 j = G m c (((cfg0.win 4).blk t).view.emb j)
  have hj : j = ix3 (0 : Fin 1) (j 1) (j 2) := funext fun a => by
    match a with
    | ⟨0, _⟩ => exact Fin.ext (by have h1 : (j 0).val < 1 := (j 0).isLt; show (j 0).val = 0; omega)
    | ⟨1, _⟩ => rfl
    | ⟨2, _⟩ => rfl
  have hemb : ((cfg0.win 4).blk t).view.emb j = ix3 (batch t.val t.isLt) (qrow t.val t.isLt (j 1)) (j 2) := by
    funext a; apply Fin.ext
    match a with
    | ⟨0, _⟩ => show win0_4.index t (0 : Fin 3) * 1 + 1 * (j 0).val = t.val / 4; have : (j 0).val < 1 := (j 0).isLt; omega
    | ⟨1, _⟩ => show win0_4.index t (1 : Fin 3) * 512 + 1 * (j 1).val = 512 * (t.val % 4) + (j 1).val; omega
    | ⟨2, _⟩ => show win0_4.index t (2 : Fin 3) * 1024 + 1 * (j 2).val = (j 2).val; omega
  calc (outsAt0 m c t.val t.isLt).1 j
      = (outsAt0 m c t.val t.isLt).1 (ix3 (0 : Fin 1) (j 1) (j 2)) := congrArg _ hj
    _ = _ := out_point m c t (j 1) (j 2)
    _ = G m c (((cfg0.win 4).blk t).view.emb j) := by rw [hemb]; rfl

/-- An index of the array is in point `t`'s block iff each coordinate is in the block's range on its axis. -/
theorem mem_blk (t : Fin cfg0.N) (i : S4x2048x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v0).slice (win0_4.rect t)).set ↔ _
  rw [View.set_slice_whole, Rect.mem_set_unit]
  exact Iff.rfl

/-- Every index of the array is in the block of the point of its batch and of its row's tile. -/
theorem cover (i : S4x2048x1024.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- So after the run the result array is the result function of the arguments. -/
theorem final (c : Dev nD) : (dats m 0 c).arrAt 4 cfg0.N = G m c :=
  (dats m 0 c).arrAt_eq_of_cover 4 (G m c) (fun t _ => flushed_eq m c t) cover

/-- The run, read: the result array at the attention function of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KValue

end
-- ==== Proof.RefValue.lean ====
/-
  The reference's result is the attention function of the specification, entry by entry.

  The reference projects all of `x` three times, takes every batch's scores, divides them by `√1024`, takes the row
  maximum (folded from `-∞`, then once more the maximum with `-∞`), exponentiates, sums each row from zero, divides,
  and multiplies by the value projection. Read at an entry `(b, q, e)` this is the specification's `outRow` of query
  row `(b, q)` and batch block `b`: the quotient by `√1024` is the product with `1/32`, the second maximum and the
  zero the sum starts from change nothing.
-/
import proofs.«176673_j57578331570614_2_alg».proof.Proof.Gen.ReferenceIdeal.Read
import proofs.«176673_j57578331570614_2_alg».proof.Proof.Spec
import proofs.«176673_j57578331570614_2_alg».proof.Proof.LibRowMatmul
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Read Cert.Attention Cert.Lib.RowMatmul

variable (x0 : (⟨S4x2048x1024, .f32⟩ : BufTy).Contents (Elt Ideal)) (x1 x2 x3 : (⟨S1024x1024, .f32⟩ : BufTy).Contents (Elt Ideal))

/-- Row `s` of batch `b`. -/
abbrev xrow (b : Fin 4) (s : Fin 2048) : Fin 1024 → EReal := fun d => x0 (ix3 b s d)
/-- A weight matrix over coordinates. -/
abbrev wmat (w : (⟨S1024x1024, .f32⟩ : BufTy).Contents (Elt Ideal)) : Fin 1024 → Fin 1024 → EReal := fun e d => w (ix2 e d)

theorem q_entry (b : Fin 4) (s : Fin 2048) (e : Fin 1024) :
    val_main_v0 (F := Ideal) x0 x1 (ix3 b s e) = projRow (xrow x0 b s) (wmat x1) e := by
  rw [val_main_v0_apply]
  exact Finset.sum_congr rfl fun d _ => by
    rw [show lidx_main_v0 (ix3 b s e) d = ix3 b s d from funext fun a => by match a with | ⟨0, _⟩ => rfl | ⟨1, _⟩ => rfl | ⟨2, _⟩ => rfl,
      show ridx_main_v0 (ix3 b s e) d = ix2 e d from funext fun a => by match a with | ⟨0, _⟩ => rfl | ⟨1, _⟩ => rfl]

theorem k_entry (b : Fin 4) (s : Fin 2048) (e : Fin 1024) :
    val_main_v1 (F := Ideal) x0 x2 (ix3 b s e) = projRow (xrow x0 b s) (wmat x2) e := by
  rw [val_main_v1_apply]
  exact Finset.sum_congr rfl fun d _ => by
    rw [show lidx_main_v1 (ix3 b s e) d = ix3 b s d from funext fun a => by match a with | ⟨0, _⟩ => rfl | ⟨1, _⟩ => rfl | ⟨2, _⟩ => rfl,
      show ridx_main_v1 (ix3 b s e) d = ix2 e d from funext fun a => by match a with | ⟨0, _⟩ => rfl | ⟨1, _⟩ => rfl]

theorem v_entry (b : Fin 4) (s : Fin 2048) (e : Fin 1024) :
    val_main_v2 (F := Ideal) x0 x3 (ix3 b s e) = projRow (xrow x0 b s) (wmat x3) e := by
  rw [val_main_v2_apply]
  exact Finset.sum_congr rfl fun d _ => by
    rw [show lidx_main_v2 (ix3 b s e) d = ix3 b s d from funext fun a => by match a with | ⟨0, _⟩ => rfl | ⟨1, _⟩ => rfl | ⟨2, _⟩ => rfl,
      show ridx_main_v2 (ix3 b s e) d = ix2 e d from funext fun a => by match a with | ⟨0, _⟩ => rfl | ⟨1, _⟩ => rfl]

/-- The scores of query row `(b, q)` against the key rows of batch `b`. -/
abbrev scores (b : Fin 4) (q : Fin 2048) : Fin 2048 → EReal :=
  scoreRow (projRow (xrow x0 b q) (wmat x1)) fun s => projRow (xrow x0 b s) (wmat x2)

theorem score_entry (b : Fin 4) (q k : Fin 2048) :
    val_main_v6 (F := Ideal) x0 x1 x2 (ix3 b q k) = scores x0 x1 x2 b q k := by
  rw [val_main_v6_apply, val_main_v5_apply, val_main_v4_apply, val_main_cst_apply, val_main_v3_apply]
  show Ideal.div _ (Ideal.sqrt (Ideal.ofBits .f32 0x44800000#32)) = _
  rw [scale_eq]
  show _ = (∑ e : Fin 1024, projRow (xrow x0 b q) (wmat x1) e * projRow (xrow x0 b k) (wmat x2) e) * Ideal.ofBits .f32 0x3D000000#32
  refine congrArg (· * Ideal.ofBits .f32 0x3D000000#32) ?_
  exact Finset.sum_congr rfl fun e _ => by
    rw [show lidx_main_v3 (ix3 b q k) e = ix3 b q e from funext fun a => by match a with | ⟨0, _⟩ => rfl | ⟨1, _⟩ => rfl | ⟨2, _⟩ => rfl,
      show ridx_main_v3 (ix3 b q k) e = ix3 b k e from funext fun a => by match a with | ⟨0, _⟩ => rfl | ⟨1, _⟩ => rfl | ⟨2, _⟩ => rfl,
      q_entry, k_entry]

theorem max_entry (b : Fin 4) (q : Fin 2048) :
    val_main_v9 (F := Ideal) x0 x1 x2 (ix2 b q) = rowMax (scores x0 x1 x2 b q) := by
  rw [val_main_v9_apply, val_main_v8_apply, val_main_cst_1_apply]
  unfold val_main_v7
  rw [hostLastMax_apply _ _ _ (by decide) _ b q]
  show max (Ideal.ofBits .f32 0xFF800000#32) ((Finset.univ : Finset (Fin 2048)).fold max (Ideal.ofBits .f32 0xFF800000#32) _) = _
  rw [max_init_fold]
  unfold rowMax
  exact congrArg (fun f => Finset.fold max (Ideal.ofBits .f32 0xFF800000#32) f (Finset.univ : Finset (Fin 2048)))
    (funext fun k => score_entry x0 x1 x2 b q k)

theorem exp_entry (b : Fin 4) (q k : Fin 2048) :
    val_main_v13 (F := Ideal) x0 x1 x2 (ix3 b q k) = expRow (scores x0 x1 x2 b q) k := by
  rw [val_main_v13_apply, val_main_v12_apply, val_main_v11_apply, val_main_v10_apply,
    show idx_main_v10 (idx_main_v11 (ix3 b q k)) = ix2 b q from funext fun a => by match a with | ⟨0, _⟩ => rfl | ⟨1, _⟩ => rfl,
    max_entry, score_entry]
  rfl

theorem sum_entry (b : Fin 4) (q : Fin 2048) :
    val_main_v14 (F := Ideal) x0 x1 x2 (ix2 b q) = ∑ k : Fin 2048, expRow (scores x0 x1 x2 b q) k := by
  rw [val_main_v14_apply, val_main_cst_2_apply]
  show Ideal.ofBits .f32 0x00000000#32 + _ = _
  rw [Ideal.ofBits_zero_f32, zero_add]
  exact Finset.sum_congr rfl fun k _ => by
    rw [show idx_main_v14 (ix2 b q) k = ix3 b q k from funext fun a => by match a with | ⟨0, _⟩ => rfl | ⟨1, _⟩ => rfl | ⟨2, _⟩ => rfl,
      exp_entry]

theorem weight_entry (b : Fin 4) (q k : Fin 2048) :
    val_main_v17 (F := Ideal) x0 x1 x2 (ix3 b q k)
      = Ideal.div (expRow (scores x0 x1 x2 b q) k) (∑ k' : Fin 2048, expRow (scores x0 x1 x2 b q) k') := by
  rw [val_main_v17_apply, val_main_v16_apply, val_main_v15_apply,
    show idx_main_v15 (idx_main_v16 (ix3 b q k)) = ix2 b q from funext fun a => by match a with | ⟨0, _⟩ => rfl | ⟨1, _⟩ => rfl,
    sum_entry, exp_entry]
  rfl

/-- The reference's result array is the specification's result function of its arguments. -/
theorem result_eq : val_main_v18 (F := Ideal) x0 x1 x2 x3 = result x0 x1 x2 x3 := by
  funext i
  obtain ⟨b, q, e, rfl⟩ : ∃ (b : Fin 4) (q : Fin 2048) (e : Fin 1024), i = ix3 b q e := ⟨i 0, i 1, i 2, eq_ix3 i⟩
  rw [val_main_v18_apply]
  show _ = outRow (xrow x0 b q) (fun s d => x0 (ix3 b s d)) (wmat x1) (wmat x2) (wmat x3) e
  unfold outRow attend
  exact Finset.sum_congr rfl fun k _ => by
    rw [show lidx_main_v18 (ix3 b q e) k = ix3 b q k from funext fun a => by match a with | ⟨0, _⟩ => rfl | ⟨1, _⟩ => rfl | ⟨2, _⟩ => rfl,
      show ridx_main_v18 (ix3 b q e) k = ix3 b k e from funext fun a => by match a with | ⟨0, _⟩ => rfl | ⟨1, _⟩ => rfl | ⟨2, _⟩ => rfl,
      weight_entry, v_entry]

end Cert.ReferenceIdeal.RefValue

end
-- ==== Proof.lean ====
/-
  The kernel and its reference compute one function on the extended reals.

  The kernel fuses the three projections and the attention into one launch over (batch, query tile): a batch's first
  tile stores that batch's key and value projections into two buffers that are carried to the batch's other tiles, and
  every tile projects its 512 query rows, scores them against all 2048 key rows times 1/32, takes the softmax with the
  row maximum subtracted and multiplies by the value rows. The reference does the same on whole arrays, dividing the
  scores by √1024. Entry by entry both are the specification's attention function (Proof/Spec.lean): the kernel's
  result array by Proof/KernelValue.lean (what the carried buffers hold, by induction over the points; each point's block;
  the blocks fill the array), the reference's by Proof/RefValue.lean (its operations read one at a time). The only
  differences in spelling are the quotient by √1024 = 32 against the product with 1/32, equal at every extended real,
  and a repeated maximum with -∞; no sum is reordered, so finiteness of the inputs is not used.
  The three frames are the generated ones (the reference's is its run with the result dropped); nothing was rewritten
  when the kernel was idealized, so that claim is `True`.
-/
import proofs.«176673_j57578331570614_2_alg».proof.Defs
import proofs.«176673_j57578331570614_2_alg».proof.Proof.Gen.Kernel
import proofs.«176673_j57578331570614_2_alg».proof.Proof.Gen.Kernel.Skeleton
import proofs.«176673_j57578331570614_2_alg».proof.Proof.Gen.Kernel.Launch
import proofs.«176673_j57578331570614_2_alg».proof.Proof.Gen.Kernel.Points
import proofs.«176673_j57578331570614_2_alg».proof.Proof.Gen.Kernel.Frame
import proofs.«176673_j57578331570614_2_alg».proof.Proof.Gen.KernelIdeal
import proofs.«176673_j57578331570614_2_alg».proof.Proof.Gen.KernelIdeal.Skeleton
import proofs.«176673_j57578331570614_2_alg».proof.Proof.Gen.KernelIdeal.Launch
import proofs.«176673_j57578331570614_2_alg».proof.Proof.Gen.KernelIdeal.Points
import proofs.«176673_j57578331570614_2_alg».proof.Proof.Gen.KernelIdeal.Frame
import proofs.«176673_j57578331570614_2_alg».proof.Proof.Gen.ReferenceIdeal
import proofs.«176673_j57578331570614_2_alg».proof.Proof.Gen.Pre_finite_inputs
import proofs.«176673_j57578331570614_2_alg».proof.Proof.Gen.KernelIdeal.Value
import proofs.«176673_j57578331570614_2_alg».proof.Proof.Gen.ReferenceIdeal.Run
import proofs.«176673_j57578331570614_2_alg».proof.Proof.Gen.ReferenceIdeal.Read
import proofs.«176673_j57578331570614_2_alg».proof.Proof.KernelValue
import proofs.«176673_j57578331570614_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the attention function of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
